-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v3 : BitVec 32 := Scalar.muli arg0 c400_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x256_S128x128_0_128 : ∀ a, (![0, 128] : Fin 2 → Nat) a + S128x128.size a ≤ S128x256.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  h_S400x128 : 0 < S400x128.numel
  inb_S128x256_S128x128_0_0 : ∀ a, (![0, 0] : Fin 2 → Nat) a + S128x128.size a ≤ S128x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  dot_S10000x128_S128x128_S10000x128_1_1_0_0_n_n_wf : DotDims.WF S10000x128 S128x128 S10000x128 [1] [1] [0] [0] [] []
  dot_S400x128_S128x128_S400x128_1_1_0_0_n_n_wf : DotDims.WF S400x128 S128x128 S400x128 [1] [1] [0] [0] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S10000x128, .f32⟩
  | .hbm, ⟨5, _⟩ => ⟨S10000x256, .f32⟩
  | .hbm, ⟨6, _⟩ => ⟨S256x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Pieces.lean ====
/-
  What one grid point leaves behind, as values of the blocks it loaded.

  At the first point the body stores the projected features `x · W₂ᵀ` into the scratch it keeps between points,
  reads them straight back, and stores the output block; at every later point it stores nothing into the
  scratch and reads what the point before left there. Either way the output block is ONE stored value: the
  second payload of the point's 400 rows of `x`, the lower half of `W`, the bias row, the point's 400 rows of
  `adj`, and the projected features — freshly computed at the first point, carried at the others. The loads of
  `W` read its two halves of 128 columns; the load of `x`'s rows starts at the row offset the body computes.
-/
import proofs.«143469_g50706383897204_cont_8to1c4_451_18_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem zeros : (![0, 0] : Fin 2 → Nat) = fun _ => 0 := funext fun a => by fin_cases a <;> rfl

/-- The lower 128 columns of the weights, as the body loads them. -/
abbrev wLo (x2 : Vec F S128x256 .f32) : Vec F S128x128 .f32 :=
  View.ld x2 (Rect.unit (s := S128x256) ![0, 0] S128x128.size inb_S128x256_S128x128_0_0)
/-- The upper 128 columns of the weights. -/
abbrev wHi (x2 : Vec F S128x256 .f32) : Vec F S128x128 .f32 :=
  View.ld x2 (Rect.unit (s := S128x256) ![0, 128] S128x128.size inb_S128x256_S128x128_0_128)
/-- The point's 400 rows of the features, from the row offset the body computes. -/
abbrev rowsAt (i : grid0.Coords) (x1 : Vec F S10000x128 .f32) : Vec F S400x128 .f32 :=
  View.ld x1 (Rect.unit (s := S10000x128) (k0_off1 i) S400x128.size (k0_off1_inb i))

/-- The first point leaves the projected features in the carried scratch. -/
theorem scratch_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole) (hc0 : cond0_0 i) (x0 : Vec F S400x10000 .f32) (x1 : Vec F S10000x128 .f32) (x2 : Vec F S128x256 .f32) (x3 : Vec F S1x128 .f32) :
    sout0_A_0 c i arg1 harg1 arg2 harg2 arg3 harg3 arg4 harg4 arg5 harg5 arg6 harg6 hc0 x0 x1 x2 x3 = k0_pay1 x1 (wHi x2) := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_run_names
  rw [View.canon_unit_zero zeros]
  simp only [View.readAt_eq_ld, harg2.read_unread, harg3.read_unread, View.ld_unit_zero (S := S10000x128) zeros]

/-- The first point's output block: the projected features it reads back are the ones it has just stored. -/
theorem block_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole) (hc0 : cond0_0 i) (x0 : Vec F S400x10000 .f32) (x1 : Vec F S10000x128 .f32) (x2 : Vec F S128x256 .f32) (x3 : Vec F S1x128 .f32) :
    out0_A_4 c i arg1 harg1 arg2 harg2 arg3 harg3 arg4 harg4 arg5 harg5 arg6 harg6 hc0 x0 x1 x2 x3 = k0_pay2 (rowsAt i x1) (wLo x2) x3 x0 (k0_pay1 x1 (wHi x2)) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_run_names
  rw [View.canon_unit_zero zeros, View.readCov_unit_zero _ zeros]
  simp only [View.readAt_eq_ld, harg1.read_unread, harg2.read_unread, harg3.read_unread, harg4.read_unread,
    View.ld_unit_zero (S := S10000x128) zeros, View.ld_unit_zero (S := S400x10000) zeros, View.ld_unit_zero (S := S1x128) zeros]

/-- A later point's output block: the same value over the projected features `y` the scratch carries. -/
theorem block_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i) (x0 : Vec F S400x10000 .f32) (x1 : Vec F S10000x128 .f32) (x2 : Vec F S128x256 .f32) (x3 : Vec F S1x128 .f32) (y : Vec F S10000x128 .bf16) :
    out0_B_4 c i arg1 harg1 arg2 harg2 arg3 harg3 arg4 harg4 arg5 harg5 arg6 harg6 hc0 x0 x1 x2 x3 y = k0_pay2 (rowsAt i x1) (wLo x2) x3 x0 y := by
  unfold out0_B_4
  rw [View.read_writes_eq_canon _ _ _ (cover0_B_4 c i arg1 harg1 arg2 harg2 arg3 harg3 arg4 harg4 arg5 harg5 arg6 harg6 hc0 x0 x1 x2 x3 y)]
  unfold kernelRun0_B
  dsimp only
  rw [View.canon_unit_zero zeros]
  simp only [View.readAt_eq_ld, harg1.read_unread, harg2.read_unread, harg3.read_unread, harg4.read_unread, harg6.read_unread,
    View.ld_unit_zero (S := S10000x128) zeros, View.ld_unit_zero (S := S400x10000) zeros, View.ld_unit_zero (S := S1x128) zeros]

end Cert.KernelIdeal.Pieces

end
-- ==== Proof.Payload.lean ====
/-
  The kernel body's two stored values, read at an index over the extended reals.

  The body has three matrix products, each into a zero accumulator, so each is a plain sum over its contracted
  axis: the projection `x · W₂ᵀ` (rows of both operands contracted against each other), the self term
  `xᵢ · W₁ᵀ` of the point's 400 rows (the same shape of product), and the aggregation `adjᵢ · y` of the point's 400
  adjacency rows against the projected features (an ordinary rows-by-columns product over all 10000 nodes). The
  first stored value is the projection, kept in the narrower float format — which over the extended reals is the
  same number. The second is `(self + bias) + aggregation`, the bias row broadcast down the 400 rows.
-/
import proofs.«143469_g50706383897204_cont_8to1c4_451_18_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The three matrix products at an index -/

theorem proj_l0 (i : S10000x128.Idx) (q : dot_S10000x128_S128x128_S10000x128_1_1_0_0_n_n.contr.Idx) : (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem proj_r (i : S10000x128.Idx) (q : dot_S10000x128_S128x128_S10000x128_1_1_0_0_n_n.contr.Idx) : (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

/-- The projection at `(n, o)`: row `n` of the left operand against row `o` of the right one. -/
theorem proj_apply (L : FVec Ideal S10000x128 .f32) (R : FVec Ideal S128x128 .f32) (p : Fin 10000) (o : Fin 128) :
    matmul dot_S10000x128_S128x128_S10000x128_1_1_0_0_n_n none L R (constant (F := Ideal) S10000x128 .f32 0x00000000#32) (ix2 p o)
      = ∑ k : Fin 128, L (ix2 p k) * R (ix2 o k) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p o) ((contrEquiv1 dot_S10000x128_S128x128_S10000x128_1_1_0_0_n_n 128 rfl rfl).symm k) = ix2 p k := funext fun a => Fin.ext (by
    match a with
    | ⟨0, _⟩ => exact proj_l0 _ _
    | ⟨1, _⟩ => exact (dot_S10000x128_S128x128_S10000x128_1_1_0_0_n_n.lhsIdx_val_of_single rfl _ _).trans hk)
  have er : dot_S10000x128_S128x128_S10000x128_1_1_0_0_n_n.rhsIdx (ix2 p o) ((contrEquiv1 dot_S10000x128_S128x128_S10000x128_1_1_0_0_n_n 128 rfl rfl).symm k) = ix2 o k := funext fun a => Fin.ext (by
    match a with
    | ⟨0, _⟩ => exact proj_r _ _
    | ⟨1, _⟩ => exact (dot_S10000x128_S128x128_S10000x128_1_1_0_0_n_n.rhsIdx_val_of_single rfl _ _).trans hk)
  rw [el, er]

theorem self_l0 (i : S400x128.Idx) (q : dot_S400x128_S128x128_S400x128_1_1_0_0_n_n.contr.Idx) : (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem self_r (i : S400x128.Idx) (q : dot_S400x128_S128x128_S400x128_1_1_0_0_n_n.contr.Idx) : (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl

/-- The self term at `(p, o)`: row `p` of the point's rows against row `o` of the weights' lower half. -/
theorem self_apply (L : FVec Ideal S400x128 .f32) (R : FVec Ideal S128x128 .f32) (p : Fin 400) (o : Fin 128) :
    matmul dot_S400x128_S128x128_S400x128_1_1_0_0_n_n none L R (constant (F := Ideal) S400x128 .f32 0x00000000#32) (ix2 p o)
      = ∑ k : Fin 128, L (ix2 p k) * R (ix2 o k) := by
  simp only [matmul]
  rw [Ideal.matmul_constant_zero_apply, ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx (ix2 p o) ((contrEquiv1 dot_S400x128_S128x128_S400x128_1_1_0_0_n_n 128 rfl rfl).symm k) = ix2 p k := funext fun a => Fin.ext (by
    match a with
    | ⟨0, _⟩ => exact self_l0 _ _
    | ⟨1, _⟩ => exact (dot_S400x128_S128x128_S400x128_1_1_0_0_n_n.lhsIdx_val_of_single rfl _ _).trans hk)
  have er : dot_S400x128_S128x128_S400x128_1_1_0_0_n_n.rhsIdx (ix2 p o) ((contrEquiv1 dot_S400x128_S128x128_S400x128_1_1_0_0_n_n 128 rfl rfl).symm k) = ix2 o k := funext fun a => Fin.ext (by
    match a with
    | ⟨0, _⟩ => exact self_r _ _
    | ⟨1, _⟩ => exact (dot_S400x128_S128x128_S400x128_1_1_0_0_n_n.rhsIdx_val_of_single rfl _ _).trans hk)
  rw [el, er]

theorem aggr_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem aggr_r (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The aggregation at `(p, o)`: adjacency row `p` against column `o` of the projected features. -/
theorem aggr_apply (L : FVec Ideal S400x10000 .bf16) (R : FVec Ideal S10000x128 .bf16) (p : Fin 400) (o : Fin 128) :
    matmul dot_S400x10000_S10000x128_S400x128_1_0_0_1_n_n none L R (constant (F := Ideal) S400x128 .f32 0x00000000#32) (ix2 p o)
      = ∑ k : Fin 10000, L (ix2 p k) * R (ix2 k o) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p o) ((contrEquiv1 dot_S400x10000_S10000x128_S400x128_1_0_0_1_n_n 10000 rfl rfl).symm k) = ix2 p k := funext fun a => Fin.ext (by
    match a with
    | ⟨0, _⟩ => exact aggr_l0 _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 p o) ((contrEquiv1 dot_S400x10000_S10000x128_S400x128_1_0_0_1_n_n 10000 rfl rfl).symm k) = ix2 k o := funext fun a => Fin.ext (by
    match a with
    | ⟨1, _⟩ => exact aggr_r _ _
    | ⟨0, _⟩ => exact (dot_S400x10000_S10000x128_S400x128_1_0_0_1_n_n.rhsIdx_val_of_single rfl _ _).trans hk)
  rw [el, er]

/-! ## The two stored values at an index -/

/-- The projected features at `(n, o)`: `∑ₖ x[n,k] · w[o,k]`. -/
theorem pay1_apply (v18 : Vec Ideal S10000x128 .f32) (v19 : Vec Ideal S128x128 .f32) (n : Fin 10000) (o : Fin 128) :
    k0_pay1 (F := Ideal) v18 v19 (ix2 n o) = ∑ k : Fin 128, v18 (ix2 n k) * v19 (ix2 o k) := by
  unfold k0_pay1
  rw [shapeCast_self]
  exact proj_apply v18 v19 n o

/-- The bias row broadcast down the rows, at `(p, o)`, is the bias at `o`. -/
theorem bias_apply (v8 : Vec Ideal S1x128 .f32) (p : Fin 400) (o : Fin 128) :
    broadcastTo S400x128 v8 broadcasts_S1x128_S400x128 (ix2 p o) = v8 (ix2 (0 : Fin 1) o) :=
  broadcastTo_apply v8 broadcasts_S1x128_S400x128 (ix2 p o) (ix2 (0 : Fin 1) o) (fun a => match a with
    | ⟨0, _⟩ => by show (0 : ℕ) = if (1 : ℕ) = 1 then 0 else p.val; rw [if_pos rfl]
    | ⟨1, _⟩ => by show o.val = if (128 : ℕ) = 1 then 0 else o.val; rw [if_neg (by decide)])

/-- The output block at `(p, o)`: the self term plus the bias, plus the adjacency row against the projected features. -/
theorem pay2_apply (v5 : Vec Ideal S400x128 .f32) (v6 : Vec Ideal S128x128 .f32) (v8 : Vec Ideal S1x128 .f32)
    (v12 : Vec Ideal S400x10000 .f32) (v14 : Vec Ideal S10000x128 .bf16) (p : Fin 400) (o : Fin 128) :
    k0_pay2 (F := Ideal) v5 v6 v8 v12 v14 (ix2 p o)
      = (∑ k : Fin 128, v5 (ix2 p k) * v6 (ix2 o k) + v8 (ix2 (0 : Fin 1) o)) + ∑ n : Fin 10000, v12 (ix2 p n) * v14 (ix2 n o) := by
  unfold k0_pay2
  rw [shapeCast_self, addf_apply, addf_apply, self_apply, bias_apply, aggr_apply]
  rfl

end Cert.KernelIdeal.Pay

end
-- ==== Proof.SumLaws.lean ====
/-
  Laws of finite sums of extended reals whose terms are real numbers.

  On the extended reals a product does not distribute over a sum when an infinity is present, so the
  rearrangement of a product of three matrices is proved here only for REAL entries: every entry is the
  coercion of a real number, the sums are computed in the reals, and the coercion is pushed outwards.
-/
import Mathlib.Data.EReal.Basic
import Mathlib.Algebra.BigOperators.Ring.Finset
import Mathlib.Algebra.BigOperators.Fin
import Mathlib.Tactic.Ring

open scoped BigOperators

namespace SageLaws

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: a row `a` times the matrix product `X · w` is the row `a · X` times `w`. -/
theorem assoc_real {ι κ : Type*} [Fintype ι] [Fintype κ] (a : ι → ℝ) (X : ι → κ → ℝ) (w : κ → ℝ) :
    ∑ n, a n * ∑ k, X n k * w k = ∑ k, (∑ n, a n * X n k) * w k := by
  simp only [Finset.mul_sum, Finset.sum_mul]
  rw [Finset.sum_comm]
  exact Finset.sum_congr rfl fun k _ => Finset.sum_congr rfl fun n _ => by ring

/-- The same over the extended reals, for entries that are real numbers: aggregating the neighbours' projected
    features (`a · (X · w)`) is projecting the aggregated features (`(a · X) · w`). -/
theorem assoc_coe {ι κ : Type*} [Fintype ι] [Fintype κ] (a : ι → ℝ) (X : ι → κ → ℝ) (w : κ → ℝ) :
    ∑ n, (a n : EReal) * ∑ k, (X n k : EReal) * (w k : EReal)
      = ∑ k, (∑ n, (a n : EReal) * (X n k : EReal)) * (w k : EReal) := by
  have hl : ∀ n, (a n : EReal) * ∑ k, (X n k : EReal) * (w k : EReal) = ((a n * ∑ k, X n k * w k : ℝ) : EReal) := by
    intro n
    rw [EReal.coe_mul, coe_sum]
    exact congrArg _ (Finset.sum_congr rfl fun k _ => (EReal.coe_mul _ _).symm)
  have hr : ∀ k, (∑ n, (a n : EReal) * (X n k : EReal)) * (w k : EReal) = (((∑ n, a n * X n k) * w k : ℝ) : EReal) := by
    intro k
    rw [EReal.coe_mul, coe_sum]
    exact congrArg (· * (w k : EReal)) (Finset.sum_congr rfl fun n _ => (EReal.coe_mul _ _).symm)
  rw [Finset.sum_congr rfl fun n _ => hl n, Finset.sum_congr rfl fun k _ => hr k, ← coe_sum, ← coe_sum, assoc_real]

/-- The lower half of the 256 columns: column `k`. -/
abbrev lo (k : Fin 128) : Fin 256 := ⟨k.val, by omega⟩
/-- The upper half of the 256 columns: column `128 + k`. -/
abbrev hi (k : Fin 128) : Fin 256 := ⟨128 + k.val, by omega⟩

/-- A sum over 256 columns is the sum over the lower 128 plus the sum over the upper 128. -/
theorem sum_halves {M : Type*} [AddCommMonoid M] (f : Fin 256 → M) :
    ∑ j, f j = ∑ k : Fin 128, f (lo k) + ∑ k : Fin 128, f (hi k) :=
  Fin.sum_univ_add (a := 128) (b := 128) f

end SageLaws
-- ==== Proof.Spec.lean ====
/-
  The GraphSAGE layer as one function of the four argument arrays, index by index, over the extended reals.

  With `W = [W₁ | W₂]` split along its 256 columns, output entry `(r, o)` is

      (∑ₖ x[r,k]·W[o,k] + b[o]) + ∑ₙ adj[r,n]·(∑ₖ x[n,k]·W[o,128+k])        (`layerAt`)

  — the self term plus the bias, plus the adjacency row applied to the PROJECTED features `x·W₂ᵀ`. The other
  arrangement aggregates first and projects afterwards, the bias added last:

      (∑ₖ x[r,k]·W[o,k] + ∑ₖ (∑ₙ adj[r,n]·x[n,k])·W[o,128+k]) + b[o]        (`aggAt`)

  which is a product of the concatenated row `[x[r,:] | (adj·x)[r,:]]` with row `o` of `W`. The two agree when
  the entries of `x`, `adj` and `W` are real numbers (`layerAt_eq_aggAt`): moving the factor `W[o,128+k]` across
  the sum over `n` is distributivity, which fails on the extended reals at the infinities. The bias is only ever
  added, so nothing is asked of it.
-/
import proofs.«143469_g50706383897204_cont_8to1c4_451_18_alg».proof.Proof.SumLaws
import Idealize.ShloMosaic.PureOps.Ideal
import Idealize.ShloMosaic.Lib.ValueIdx

noncomputable section

open scoped BigOperators

namespace SageSpec

open Idealize.ShloMosaic Idealize.ShloMosaic.ValueIdx SageLaws

/-- The four argument shapes: features, adjacency, weights, bias. -/
abbrev SX : Shape := ⟨2, ![10000, 128]⟩
abbrev SA : Shape := ⟨2, ![10000, 10000]⟩
abbrev SW : Shape := ⟨2, ![128, 256]⟩
abbrev SB : Shape := ⟨1, ![128]⟩

variable (x : SX.Idx → EReal) (adj : SA.Idx → EReal) (W : SW.Idx → EReal) (b : SB.Idx → EReal)

/-- The self term: row `r` of `x` against the LOWER 128 columns of row `o` of `W`. -/
def selfAt (r : Fin 10000) (o : Fin 128) : EReal := ∑ k : Fin 128, x (ix2 r k) * W (ix2 o (lo k))

/-- The projected features: row `n` of `x` against the UPPER 128 columns of row `o` of `W`. -/
def projAt (n : Fin 10000) (o : Fin 128) : EReal := ∑ k : Fin 128, x (ix2 n k) * W (ix2 o (hi k))

/-- The aggregated features: row `r` of `adj` against column `k` of `x`. -/
def nbrAt (r : Fin 10000) (k : Fin 128) : EReal := ∑ n : Fin 10000, adj (ix2 r n) * x (ix2 n k)

/-- Project, then aggregate. -/
def layerAt (r : Fin 10000) (o : Fin 128) : EReal :=
  (selfAt x W r o + b (ix1 o)) + ∑ n : Fin 10000, adj (ix2 r n) * projAt x W n o

/-- Aggregate, then project. -/
def aggAt (r : Fin 10000) (o : Fin 128) : EReal :=
  (selfAt x W r o + ∑ k : Fin 128, nbrAt x adj r k * W (ix2 o (hi k))) + b (ix1 o)

/-- The layer's output array, in the project-then-aggregate arrangement. -/
def layer : SX.Idx → EReal := fun i => layerAt x adj W b (i 0) (i 1)

/-- For real entries the two arrangements are one number. -/
theorem layerAt_eq_aggAt (hx : ∀ i, ∃ v : ℝ, x i = v) (ha : ∀ i, ∃ v : ℝ, adj i = v) (hW : ∀ i, ∃ v : ℝ, W i = v)
    (r : Fin 10000) (o : Fin 128) : layerAt x adj W b r o = aggAt x adj W b r o := by
  choose x' hx' using hx
  choose a' ha' using ha
  choose W' hW' using hW
  unfold layerAt aggAt selfAt projAt nbrAt
  simp only [hx', ha', hW']
  rw [assoc_coe (fun n => a' (ix2 r n)) (fun n k => x' (ix2 n k)) (fun k => W' (ix2 o (hi k)))]
  exact add_right_comm _ _ _

end SageSpec

end
-- ==== Proof.PointValue.lean ====
/-
  One entry of one output block, in the layer's own terms.

  The body reads the weights through two windows of 128 columns (columns `k` and `128 + k` of `W`) and the
  point's rows of the features through a window of 400 rows starting at the row offset `off` it computes, so row
  `p` of the block is row `off + p` of `x`. Reading the two stored values at an index then gives, for entry
  `(p, o)` of the block,

      (self term of row off + p  +  bias row at o)  +  ∑ₙ (adjacency block)[p, n] · (projected features)[n, o].
-/
import proofs.«143469_g50706383897204_cont_8to1c4_451_18_alg».proof.Proof.Pieces
import proofs.«143469_g50706383897204_cont_8to1c4_451_18_alg».proof.Proof.Payload
import proofs.«143469_g50706383897204_cont_8to1c4_451_18_alg».proof.Proof.Spec

noncomputable section

open scoped BigOperators

namespace Cert.KernelIdeal.PointValue

open Cert.KernelIdeal Cert.KernelIdeal.Gen Idealize.ShloMosaic Idealize.ShloMosaic.ValueIdx
open SageSpec SageLaws Cert.KernelIdeal.Pieces Cert.KernelIdeal.Pay

variable {F : FTy → Type} [FloatOps F]

/-- The lower window of the weights at `(o, k)` is `W[o, k]`. -/
theorem wLo_apply (x2 : Vec F S128x256 .f32) (o k : Fin 128) : wLo x2 (ix2 o k) = x2 (ix2 o (lo k)) :=
  congrArg x2 (funext fun a => Fin.ext (by
    match a with
    | ⟨0, _⟩ => show 0 + 1 * o.val = o.val; omega
    | ⟨1, _⟩ => show 0 + 1 * k.val = k.val; omega))

/-- The upper window of the weights at `(o, k)` is `W[o, 128 + k]`. -/
theorem wHi_apply (x2 : Vec F S128x256 .f32) (o k : Fin 128) : wHi x2 (ix2 o k) = x2 (ix2 o (hi k)) :=
  congrArg x2 (funext fun a => Fin.ext (by
    match a with
    | ⟨0, _⟩ => show 0 + 1 * o.val = o.val; omega
    | ⟨1, _⟩ => show 128 + 1 * k.val = 128 + k.val; omega))

/-- Row `p` of the point's window of the features is row `off + p` of the features. -/
theorem rows_apply (i : grid0.Coords) (off : ℕ) (h0 : k0_off1 i 0 = off) (h1 : k0_off1 i 1 = 0)
    (x1 : Vec F S10000x128 .f32) (p : Fin 400) (k : Fin 128) (hp : off + p.val < 10000) :
    rowsAt i x1 (ix2 p k) = x1 (ix2 (⟨off + p.val, hp⟩ : Fin 10000) k) :=
  congrArg x1 (funext fun a => Fin.ext (by
    match a with
    | ⟨0, _⟩ => show k0_off1 i 0 + 1 * p.val = off + p.val; omega
    | ⟨1, _⟩ => show k0_off1 i 1 + 1 * k.val = k.val; omega))

/-- Entry `(p, o)` of the point's output block, over projected features computed from the same `x` and `W`. -/
theorem entry (i : grid0.Coords) (off : ℕ) (h0 : k0_off1 i 0 = off) (h1 : k0_off1 i 1 = 0)
    (x1 : Vec Ideal S10000x128 .f32) (x2 : Vec Ideal S128x256 .f32) (x3 : Vec Ideal S1x128 .f32)
    (x0 : Vec Ideal S400x10000 .f32) (p : Fin 400) (o : Fin 128) (hp : off + p.val < 10000) :
    k0_pay2 (F := Ideal) (rowsAt i x1) (wLo x2) x3 x0 (k0_pay1 (F := Ideal) x1 (wHi x2)) (ix2 p o)
      = (selfAt x1 x2 (⟨off + p.val, hp⟩ : Fin 10000) o + x3 (ix2 (0 : Fin 1) o))
        + ∑ n : Fin 10000, x0 (ix2 p n) * projAt x1 x2 n o := by
  rw [pay2_apply]
  unfold selfAt projAt
  refine congrArg₂ (· + ·) (congrArg₂ (· + ·) (Finset.sum_congr rfl fun k _ => ?_) rfl) (Finset.sum_congr rfl fun n _ => ?_)
  · rw [rows_apply i off h0 h1 x1 p k hp, wLo_apply]
  · rw [pay1_apply]
    exact congrArg _ (Finset.sum_congr rfl fun k _ => by rw [wHi_apply])

end Cert.KernelIdeal.PointValue

end
-- ==== Proof.KernelValue.lean ====
/-
  The kernel's result array is the layer, in the project-then-aggregate arrangement.

  The grid has 25 points; point `t` is given rows `400·t … 400·t + 399` of the adjacency and writes back the same
  rows of the result, while the features, the weights and the bias row reach every point whole. The first point
  stores the projected features `x · W₂ᵀ` in a scratch no later point overwrites, so after EVERY point the scratch
  holds the projected features of the whole arrays (`carried`, by induction on the point). Hence what point `t`
  writes back is rows `400·t …` of the layer's array (`flushed_eq`), every row lies in exactly the block of point
  `row / 400` (`cover`), and the result array ends holding the layer (`final`, `run`).
-/
import proofs.«143469_g50706383897204_cont_8to1c4_451_18_alg».proof.Proof.Gen.KernelIdeal.Value
import proofs.«143469_g50706383897204_cont_8to1c4_451_18_alg».proof.Proof.PointValue
import Idealize.ShloMosaic.Lib.ValueLayout
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open SageSpec SageLaws Cert.KernelIdeal.Pieces Cert.KernelIdeal.PointValue

variable (m : (ℓ : Loc nD τ sig) → Buf (Elt Ideal) ℓ) (ρ : Dev nD → PrngReg)

/-! ## Where each window's block sits, decided once over the 25 points -/

/-- The adjacency's and the result's blocks are row block `t`; the other three windows never move; and the row
    offset the body computes for its own load of the features is `400·t`. -/
theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) 0 = 400 * t.val ∧ k0_off1 (grid0.coords t) 1 = 0 :=
  (by decide +kernel : ∀ t : Fin grid0.N, _)

/-! ## The input blocks, read off the argument arrays -/

/-- Every point is given the whole feature array. -/
theorem blk_x (c : Dev nD) (t : Fin cfg0.N) :
    (iblk m c 1 t : Vec Ideal S10000x128 .f32) = m ((c : Thread nD τ).loc main_arg0) := by
  obtain ⟨-, -, e0, e1, -⟩ := where_blocks t
  funext j
  unfold iblk
  rw [View.read_apply]
  show V m c main_arg0 _ = m ((c : Thread nD τ).loc main_arg0) j
  rw [V_main_arg0]
  refine congrArg _ (funext fun a => Fin.ext ?_)
  match a with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega

/-- Every point is given the whole weight array. -/
theorem blk_w (c : Dev nD) (t : Fin cfg0.N) :
    (iblk m c 2 t : Vec Ideal S128x256 .f32) = m ((c : Thread nD τ).loc main_arg2) := by
  obtain ⟨-, -, -, -, e0, e1, -⟩ := where_blocks t
  funext j
  unfold iblk
  rw [View.read_apply]
  show V m c main_arg2 _ = m ((c : Thread nD τ).loc main_arg2) j
  rw [V_main_arg2]
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 256 + 1 * (j 1).val = (j 1).val; rw [e1]; omega

/-- The bias reaches the region as a row: the one host operation before it casts `[128]` to `[1, 128]`. -/
theorem bias_row (c : Dev nD) :
    (V m c main_v0 : S1x128.Idx → Elt Ideal .f32)
      = shapeCast S1x128 (m ((c : Thread nD τ).loc main_arg3)) shapeCasts_S128_S1x128 := by
  dsimp only [V, hostOps0]
  after_results
  rfl

/-- Every point is given the bias row, whose entry `(0, o)` is the bias at `o`. -/
theorem blk_b (c : Dev nD) (t : Fin cfg0.N) (o : Fin 128) :
    (iblk m c 3 t : Vec Ideal S1x128 .f32) (ix2 (0 : Fin 1) o) = m ((c : Thread nD τ).loc main_arg3) (ix1 o) := by
  obtain ⟨-, -, -, -, -, -, e0, e1, -⟩ := where_blocks t
  unfold iblk
  rw [View.read_apply]
  show V m c main_v0 _ = _
  rw [bias_row]
  refine Eq.trans (congrArg _ (funext fun a => Fin.ext ?_)) (shapeCast_a_1a_apply _ shapeCasts_S128_S1x128 (0 : Fin 1) o)
  match a with
  | ⟨0, _⟩ => show win0_3.index t (0 : Fin 2) * 1 + 1 * 0 = 0; rw [e0]
  | ⟨1, _⟩ => show win0_3.index t (1 : Fin 2) * 128 + 1 * o.val = o.val; rw [e1]; omega

/-- Point `t` is given rows `400·t …` of the adjacency. -/
theorem blk_adj (c : Dev nD) (t : Fin cfg0.N) (p : Fin 400) (n : Fin 10000) (hp : 400 * t.val + p.val < 10000) :
    (iblk m c 0 t : Vec Ideal S400x10000 .f32) (ix2 p n)
      = m ((c : Thread nD τ).loc main_arg1) (ix2 (⟨400 * t.val + p.val, hp⟩ : Fin 10000) n) := by
  obtain ⟨e0, e1, -⟩ := where_blocks t
  unfold iblk
  rw [View.read_apply]
  show V m c main_arg1 _ = _
  rw [V_main_arg1]
  refine congrArg _ (funext fun a => Fin.ext ?_)
  match a with
  | ⟨0, _⟩ => show win0_0.index t (0 : Fin 2) * 400 + 1 * p.val = 400 * t.val + p.val; rw [e0]; omega
  | ⟨1, _⟩ => show win0_0.index t (1 : Fin 2) * 10000 + 1 * n.val = n.val; rw [e1]; omega

/-! ## The carried scratch -/

/-- The projected features of the whole arrays, as the first point stores them. -/
abbrev projected (c : Dev nD) : Vec Ideal S10000x128 .bf16 :=
  k0_pay1 (F := Ideal) (m ((c : Thread nD τ).loc main_arg0)) (wHi (m ((c : Thread nD τ).loc main_arg2)))

/-- After every point the scratch holds them: the first point stores them, no later point stores into it. -/
theorem carried (c : Dev nD) : ∀ (n : ℕ) (hn : n < cfg0.N), (outsAt0 m c n hn).2 = projected m c
  | 0, hn => by
    rw [outsAt0_A m c ⟨0, hn⟩ rfl]
    dsimp only
    refine (scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)).trans ?_
    rw [blk_x, blk_w]
  | n + 1, hn => by
    have hN : cfg0.N = 25 := N_0
    have hB : ¬(⟨n + 1, hn⟩ : Fin cfg0.N).val % 25 = 0 := by dsimp only; omega
    rw [outsAt0_B m c ⟨n + 1, hn⟩ hB]
    dsimp only
    unfold sout0_B_0
    exact carried c n _

/-! ## What a point writes back -/

/-- The layer's array over the argument arrays as launched. -/
abbrev result (c : Dev nD) : Buf (Elt Ideal) ((c : Thread nD τ).loc main_v1) :=
  layer (m ((c : Thread nD τ).loc main_arg0)) (m ((c : Thread nD τ).loc main_arg1))
    (m ((c : Thread nD τ).loc main_arg2)) (m ((c : Thread nD τ).loc main_arg3))

/-- A point's output block over the projected features of the whole arrays, entry by entry: rows `400·t …` of the
    layer. -/
theorem block_entry (c : Dev nD) (t : Fin cfg0.N) (p : Fin 400) (o : Fin 128) (hp : 400 * t.val + p.val < 10000) :
    k0_pay2 (F := Ideal) (rowsAt (grid0.coords t) (m ((c : Thread nD τ).loc main_arg0)))
        (wLo (m ((c : Thread nD τ).loc main_arg2))) (iblk m c 3 t) (iblk m c 0 t) (projected m c) (ix2 p o)
      = layerAt (m ((c : Thread nD τ).loc main_arg0)) (m ((c : Thread nD τ).loc main_arg1))
          (m ((c : Thread nD τ).loc main_arg2)) (m ((c : Thread nD τ).loc main_arg3)) (⟨400 * t.val + p.val, hp⟩ : Fin 10000) o := by
  obtain ⟨-, -, -, -, -, -, -, -, -, -, h0, h1⟩ := where_blocks t
  refine (entry (grid0.coords t) (400 * t.val) h0 h1 (m ((c : Thread nD τ).loc main_arg0)) (m ((c : Thread nD τ).loc main_arg2))
    (iblk m c 3 t) (iblk m c 0 t) p o hp).trans ?_
  unfold layerAt
  rw [blk_b m c t o]
  exact congrArg _ (Finset.sum_congr rfl fun n _ => by rw [blk_adj m c t p n hp])

/-- WHAT POINT `t` WRITES BACK is block `t` of the layer's array. -/
theorem flushed_eq (c : Dev nD) (t : Fin cfg0.N) :
    (dats m 0 c).flushed 4 t = ((cfg0.win 4).blk t).view.read (Elt Ideal) (result m c) := by
  have hN : cfg0.N = 25 := N_0
  have ht : t.val < 25 := lt_of_lt_of_eq t.isLt hN
  obtain ⟨-, -, -, -, -, -, -, -, e0, e1, -⟩ := where_blocks t
  funext y
  obtain ⟨p, o, rfl⟩ : ∃ (p : Fin 400) (o : Fin 128), y = ix2 p o := ⟨y 0, y 1, eq_ix2 y⟩
  have hp : 400 * t.val + p.val < 10000 := by have := p.isLt; omega
  rw [View.read_apply]
  have hemb : ((cfg0.win 4).blk t).view.emb (ix2 p o) = ix2 (⟨400 * t.val + p.val, hp⟩ : Fin 10000) o :=
    funext fun a => Fin.ext (by
      match a with
      | ⟨0, _⟩ => show win0_4.index t (0 : Fin 2) * 400 + 1 * p.val = 400 * t.val + p.val; rw [e0]; omega
      | ⟨1, _⟩ => show win0_4.index t (1 : Fin 2) * 128 + 1 * o.val = o.val; rw [e1]; omega)
  rw [hemb]
  show _ = layerAt _ _ _ _ (⟨400 * t.val + p.val, hp⟩ : Fin 10000) o
  rw [← block_entry m c t p o hp]
  by_cases h0 : t.val % 25 = 0
  · rw [Value.flushed4_A m c t h0]
    show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t) (ix2 p o) = _
    rw [block_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t), blk_x, blk_w]
  · rw [Value.flushed4_B m c t h0]
    show out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2 (ix2 p o) = _
    rw [block_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t), carried, blk_x, blk_w]

/-! ## The blocks tile the result -/

/-- Row `r` of the result lies in the block of point `r / 400`, which is written back. -/
theorem cover (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by rw [hN]; omega⟩, rfl⟩
  obtain ⟨-, -, -, -, -, -, -, -, e0, e1, -⟩ := where_blocks t
  refine ⟨t, flush0_4 t, ?_⟩
  show i ∈ ((View.whole main_v1).slice (win0_4.rect t)).set
  rw [View.set_slice_whole, Rect.mem_set_unit]
  intro a
  match a with
  | ⟨0, _⟩ =>
    show win0_4.index t (0 : Fin 2) * 400 ≤ (i 0).val ∧ (i 0).val < win0_4.index t (0 : Fin 2) * 400 + 400
    rw [e0, ht]; omega
  | ⟨1, _⟩ =>
    show win0_4.index t (1 : Fin 2) * 128 ≤ (i 1).val ∧ (i 1).val < win0_4.index t (1 : Fin 2) * 128 + 128
    rw [e1]; omega

/-- So the result array ends holding the layer. -/
theorem final (c : Dev nD) : (dats m 0 c).arrAt 4 cfg0.N = result m c :=
  (dats m 0 c).arrAt_eq_of_cover 4 (result m c) (fun t _ => flushed_eq m c t) cover

/-- The run, read: the result array at the layer of the argument arrays as launched, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference's result, index by index: it is the aggregate-then-project arrangement of the layer.

  The reference multiplies the adjacency by the features, joins the features and that product side by side into
  rows of 256 entries, multiplies by the transposed weights and adds the bias row. At entry `(r, o)` the long
  product is a sum over the 256 joined columns; it splits into the lower 128 columns, where the joined row is
  `x[r,:]`, and the upper 128, where it is `(adj · x)[r,:]`. No property of the numbers is used: this holds for
  any extended reals.
-/
import proofs.«143469_g50706383897204_cont_8to1c4_451_18_alg».proof.Proof.Gen.ReferenceIdeal.Read
import proofs.«143469_g50706383897204_cont_8to1c4_451_18_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx SageSpec SageLaws

/-! ## The generated index functions, in coordinates -/

theorem lidx0 (r : Fin 10000) (k : Fin 128) (n : Fin 10000) : lidx_main_v0 (ix2 r k) n = ix2 r n :=
  funext fun a => Fin.ext (by match a with | ⟨0, _⟩ => rfl | ⟨1, _⟩ => rfl)
theorem ridx0 (r : Fin 10000) (k : Fin 128) (n : Fin 10000) : ridx_main_v0 (ix2 r k) n = ix2 n k :=
  funext fun a => Fin.ext (by match a with | ⟨0, _⟩ => rfl | ⟨1, _⟩ => rfl)
theorem lidx3 (r : Fin 10000) (o : Fin 128) (j : Fin 256) : lidx_main_v3 (ix2 r o) j = ix2 r j :=
  funext fun a => Fin.ext (by match a with | ⟨0, _⟩ => rfl | ⟨1, _⟩ => rfl)
theorem ridx3 (r : Fin 10000) (o : Fin 128) (j : Fin 256) : ridx_main_v3 (ix2 r o) j = ix2 j o :=
  funext fun a => Fin.ext (by match a with | ⟨0, _⟩ => rfl | ⟨1, _⟩ => rfl)
theorem idx2 (j : Fin 256) (o : Fin 128) : idx_main_v2 (ix2 j o) = ix2 o j :=
  funext fun a => Fin.ext (by match a with | ⟨0, _⟩ => rfl | ⟨1, _⟩ => rfl)
theorem idx5 (r : Fin 10000) (o : Fin 128) : idx_main_v5 (ix2 r o) = ix2 (0 : Fin 1) o :=
  funext fun a => Fin.ext (by match a with | ⟨0, _⟩ => rfl | ⟨1, _⟩ => rfl)
theorem idx4 (o : Fin 128) : idx_main_v4 (ix2 (0 : Fin 1) o) = ix1 o :=
  funext fun a => Fin.ext (by match a with | ⟨0, _⟩ => rfl)

/-! ## The joined row -/

variable (x : FVec Ideal S10000x128 .f32) (adj : FVec Ideal S10000x10000 .f32) (W : FVec Ideal S128x256 .f32) (b : FVec Ideal S128 .f32)

/-- In its lower 128 columns the joined row is the features' row. -/
theorem joined_lo (r : Fin 10000) (k : Fin 128) : val_main_v1 (F := Ideal) x adj (ix2 r (lo k)) = x (ix2 r k) := by
  unfold val_main_v1
  exact concatenate_pair_apply_left (1 : Fin 2) x _ concatenates_S10000x128_S10000x128_S10000x256_d1 (ix2 r (lo k)) rfl (ix2 r k)
    (fun b => match b with | ⟨0, _⟩ => rfl | ⟨1, _⟩ => rfl)

/-- In its upper 128 columns it is the aggregated features' row. -/
theorem joined_hi (r : Fin 10000) (k : Fin 128) : val_main_v1 (F := Ideal) x adj (ix2 r (hi k)) = nbrAt x adj r k := by
  unfold val_main_v1
  rw [concatenate_pair_apply_right (1 : Fin 2) x (val_main_v0 (F := Ideal) x adj) concatenates_S10000x128_S10000x128_S10000x256_d1
    (ix2 r (hi k)) rfl rfl (ix2 r k)
    (fun b hb => match b, hb with | ⟨0, _⟩, _ => rfl | ⟨1, _⟩, hb => absurd rfl hb)
    (by show k.val + 128 = 128 + k.val; omega)]
  rw [val_main_v0_apply]
  simp only [lidx0, ridx0]
  rfl

/-! ## The result -/

/-- The reference's result array is the aggregate-then-project arrangement. -/
theorem result_eq : val_main_v6 (F := Ideal) x adj W b = fun i => aggAt x adj W b (i 0) (i 1) := by
  funext i
  obtain ⟨r, o, rfl⟩ : ∃ (r : Fin 10000) (o : Fin 128), i = ix2 r o := ⟨i 0, i 1, eq_ix2 i⟩
  rw [val_main_v6_apply, val_main_v3_apply, val_main_v5_apply, val_main_v4_apply]
  simp only [val_main_v2_apply, lidx3, ridx3, idx2, idx5, idx4]
  rw [sum_halves]
  simp only [joined_lo, joined_hi]
  rfl

end Cert.ReferenceIdeal.RefValue

end
-- ==== Proof.Finite.lean ====
/-
  The precondition, read: every entry of the features, the adjacency and the weights is a real number.

  The precondition compares each entry's absolute value with the float pattern of `+∞`, takes the conjunction over
  each array, and conjoins the four arrays. Over the extended reals `|v| < +∞` excludes exactly `+∞` and `-∞`
  (`|±∞| = +∞`), so an entry that passes is the coercion of a real number. The bias passes too, but nothing
  below needs it.
-/
import proofs.«143469_g50706383897204_cont_8to1c4_451_18_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Cert.Pre_finite_inputs.Facts Idealize.ShloMosaic

variable [Cert.Pre_finite_inputs.Facts]

/-- The rank-0 result of a full reduction has one index. -/
instance : Subsingleton S_.Idx := ⟨fun a b => funext fun d => d.elim0⟩

/-- The pattern the precondition compares against is `+∞`. -/
theorem inf_pattern : Ideal.ofBits .f32 0x7F800000#32 = (⊤ : EReal) := by simp [Ideal.ofBits, Ideal.ieee]

/-- An extended real whose absolute value is below `+∞` is a real number. -/
theorem real_of_abs_lt (v : EReal) (h : Ideal.cmp .olt (max v (-v)) (Ideal.ofBits .f32 0x7F800000#32) = 1#1) :
    ∃ r : ℝ, v = r := by
  rw [inf_pattern] at h
  induction v using EReal.rec with
  | bot => simp [Ideal.cmp] at h
  | top => simp [Ideal.cmp] at h
  | coe r => exact ⟨r, rfl⟩

/-- What the precondition says of the three arrays that are multiplied. -/
theorem real_entries (x : FVec Ideal S10000x128 .f32) (a : FVec Ideal S10000x10000 .f32) (w : FVec Ideal S128x256 .f32)
    (b : FVec Ideal S128 .f32) (h : fn (F := Ideal) x a w b = fun _ => 1#1) :
    (∀ i, ∃ r : ℝ, x i = r) ∧ (∀ i, ∃ r : ℝ, a i = r) ∧ (∀ i, ∃ r : ℝ, w i = r) := by
  have h0 := congrFun h ValueIdx.ix0
  dsimp only [fn, fn_part1] at h0
  obtain ⟨h012, -⟩ := IntOp.andi_eq_one.mp h0
  obtain ⟨h01, h2⟩ := IntOp.andi_eq_one.mp h012
  obtain ⟨hx, ha⟩ := IntOp.andi_eq_one.mp h01
  exact ⟨fun i => real_of_abs_lt _ (Host.reduce_andi_all _ _ _ _ _ hx i),
    fun i => real_of_abs_lt _ (Host.reduce_andi_all _ _ _ _ _ ha i),
    fun i => real_of_abs_lt _ (Host.reduce_andi_all _ _ _ _ _ h2 i)⟩

end Cert.Pre_finite_inputs.Finite

end
-- ==== Proof.lean ====
/-
  A GraphSAGE layer over a dense adjacency: `concat(x, adj·x) · Wᵀ + b`, for `x` of 10000 × 128 features, `adj` of
  10000 × 10000, `W` of 128 × 256 and `b` of 128.

  With `W = [W₁ | W₂]` split along its columns the layer's entry `(r, o)` is

      ∑ₖ x[r,k]·W₁[o,k] + ∑ₖ (∑ₙ adj[r,n]·x[n,k])·W₂[o,k] + b[o].

  The kernel moves the small product in front of the large one: it computes the projected features `y = x·W₂ᵀ` once,
  at the first of 25 row blocks, and at every row block forms `(xᵢ·W₁ᵀ + b) + adjᵢ·y`. The two are the same number
  because `∑ₙ adj[r,n]·(∑ₖ x[n,k]·W₂[o,k]) = ∑ₖ (∑ₙ adj[r,n]·x[n,k])·W₂[o,k]`: distributivity and a change of the order
  of summation. On the extended reals distributivity fails at the infinities, so this is where the precondition is
  used: every entry of `x`, `adj` and `W` is finite, hence a real number, and the identity is the one in the reals.
  The kernel's narrower float format for `y` and for the adjacency block is the identity on the extended reals, and
  adding the bias before or after the neighbour term is commutativity of addition.

  The pieces: the algebra over real entries (Proof/SumLaws.lean) and the two arrangements of the layer
  (Proof/Spec.lean); the reference's result read index by index (Proof/RefValue.lean); the kernel's stored values
  read at an index (Proof/Payload.lean, Proof/Pieces.lean, Proof/PointValue.lean) and its result array as the layer
  (Proof/KernelValue.lean); the precondition read as finiteness (Proof/Finite.lean). The idealization rewrote no
  operation, so that conjunct is trivial.
-/
import proofs.«143469_g50706383897204_cont_8to1c4_451_18_alg».proof.Defs
import proofs.«143469_g50706383897204_cont_8to1c4_451_18_alg».proof.Proof.Gen.Kernel
import proofs.«143469_g50706383897204_cont_8to1c4_451_18_alg».proof.Proof.Gen.Kernel.Skeleton
import proofs.«143469_g50706383897204_cont_8to1c4_451_18_alg».proof.Proof.Gen.Kernel.Launch
import proofs.«143469_g50706383897204_cont_8to1c4_451_18_alg».proof.Proof.Gen.Kernel.Points
import proofs.«143469_g50706383897204_cont_8to1c4_451_18_alg».proof.Proof.Gen.Kernel.Frame
import proofs.«143469_g50706383897204_cont_8to1c4_451_18_alg».proof.Proof.Gen.KernelIdeal
import proofs.«143469_g50706383897204_cont_8to1c4_451_18_alg».proof.Proof.Gen.KernelIdeal.Skeleton
import proofs.«143469_g50706383897204_cont_8to1c4_451_18_alg».proof.Proof.Gen.KernelIdeal.Launch
import proofs.«143469_g50706383897204_cont_8to1c4_451_18_alg».proof.Proof.Gen.KernelIdeal.Points
import proofs.«143469_g50706383897204_cont_8to1c4_451_18_alg».proof.Proof.Gen.KernelIdeal.Frame
import proofs.«143469_g50706383897204_cont_8to1c4_451_18_alg».proof.Proof.Gen.ReferenceIdeal
import proofs.«143469_g50706383897204_cont_8to1c4_451_18_alg».proof.Proof.Gen.Pre_finite_inputs
import proofs.«143469_g50706383897204_cont_8to1c4_451_18_alg».proof.Proof.Gen.KernelIdeal.Value
import proofs.«143469_g50706383897204_cont_8to1c4_451_18_alg».proof.Proof.Gen.ReferenceIdeal.Run
import proofs.«143469_g50706383897204_cont_8to1c4_451_18_alg».proof.Proof.Gen.ReferenceIdeal.Read
import proofs.«143469_g50706383897204_cont_8to1c4_451_18_alg».proof.Proof.KernelValue
import proofs.«143469_g50706383897204_cont_8to1c4_451_18_alg».proof.Proof.RefValue
import proofs.«143469_g50706383897204_cont_8to1c4_451_18_alg».proof.Proof.Finite
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from finite arguments that agree, the kernel's result array ends at the layer in the
    project-then-aggregate arrangement and the reference's in the aggregate-then-project one: the same array, entry
    by entry, because the entries of `x`, `adj` and `W` are real numbers. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha, hw⟩ := Cert.Pre_finite_inputs.Finite.real_entries _ _ _ _ (hpre c)
  rw [Cert.ReferenceIdeal.Read.val_main_v6_eq, Cert.ReferenceIdeal.RefValue.result_eq,
    (hagree c).1, (hagree c).2.1, (hagree c).2.2.1, (hagree c).2.2.2]
  funext i
  exact (SageSpec.layerAt_eq_aggAt _ _ _ _ hx ha hw (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
